-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8x512x1024 : Shape := ⟨3, ![8, 512, 1024]⟩
abbrev S8x1024x512 : Shape := ⟨3, ![8, 1024, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8x512x1024 : S_.BroadcastsInDim S8x512x1024 (![] : Fin 0 → Fin S8x512x1024.rank)
  reducesTo_S8x512x1024_S_d0_1_2 : S8x512x1024.ReducesTo [0, 1, 2] S_
  bcast_S_S8x1024x512 : S_.BroadcastsInDim S8x1024x512 (![] : Fin 0 → Fin S8x1024x512.rank)
  reducesTo_S8x1024x512_S_d0_1_2 : S8x1024x512.ReducesTo [0, 1, 2] S_

variable [Facts]

def fn_part1 {F : FTy → Type} [FloatOps F] (main_v13 : IVec S_ 1) (main_v16 : IVec S8x1024x512 1) : IVec S_ 1 :=
  let main_c_5 : IVec S_ 1 := constantI S_ 1 1#1
  let main_v17 : IVec S_ 1 := (fun x v => Host.reduce IntOp.andi x v reducesTo_S8x1024x512_S_d0_1_2 h_S_) main_v16 main_c_5
  let main_v18 : IVec S_ 1 := andi main_v13 main_v17
  main_v18

def fn {F : FTy → Type} [FloatOps F] (main_arg0 : FVec F S8192x512 .f32) (main_arg1 : FVec F S8x512x1024 .f32) (main_arg2 : FVec F S8x512x1024 .f32) (main_arg3 : FVec F S8x1024x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8x512x1024 .f32 := Host.absf main_arg1
  let main_cst_0 : FVec F S_ .f32 := constant S_ .f32 0x7F800000#32
  let main_v5 : FVec F S8x512x1024 .f32 := broadcastInDim S8x512x1024 ![] bcast_S_S8x512x1024 main_cst_0
  let main_v6 : IVec S8x512x1024 1 := cmpf .olt main_v4 main_v5
  let main_c_1 : IVec S_ 1 := constantI S_ 1 1#1
  let main_v7 : IVec S_ 1 := (fun x v => Host.reduce IntOp.andi x v reducesTo_S8x512x1024_S_d0_1_2 h_S_) main_v6 main_c_1
  let main_v8 : IVec S_ 1 := andi main_v3 main_v7
  let main_v9 : FVec F S8x512x1024 .f32 := Host.absf main_arg2
  let main_cst_2 : FVec F S_ .f32 := constant S_ .f32 0x7F800000#32
  let main_v10 : FVec F S8x512x1024 .f32 := broadcastInDim S8x512x1024 ![] bcast_S_S8x512x1024 main_cst_2
  let main_v11 : IVec S8x512x1024 1 := cmpf .olt main_v9 main_v10
  let main_c_3 : IVec S_ 1 := constantI S_ 1 1#1
  let main_v12 : IVec S_ 1 := (fun x v => Host.reduce IntOp.andi x v reducesTo_S8x512x1024_S_d0_1_2 h_S_) main_v11 main_c_3
  let main_v13 : IVec S_ 1 := andi main_v8 main_v12
  let main_v14 : FVec F S8x1024x512 .f32 := Host.absf main_arg3
  let main_cst_4 : FVec F S_ .f32 := constant S_ .f32 0x7F800000#32
  let main_v15 : FVec F S8x1024x512 .f32 := broadcastInDim S8x1024x512 ![] bcast_S_S8x1024x512 main_cst_4
  let main_v16 : IVec S8x1024x512 1 := cmpf .olt main_v14 main_v15
  fn_part1 (F := F) main_v13 main_v16
-- ==== Kernel.lean ====
abbrev S8192x512 : Shape := ⟨2, ![8192, 512]⟩
abbrev S8x512x1024 : Shape := ⟨3, ![8, 512, 1024]⟩
abbrev S8x1024x512 : Shape := ⟨3, ![8, 1024, 512]⟩
abbrev S1024x512 : Shape := ⟨2, ![1024, 512]⟩
abbrev S1x512x1024 : Shape := ⟨3, ![1, 512, 1024]⟩
abbrev S1x1024x512 : Shape := ⟨3, ![1, 1024, 512]⟩
abbrev S512x1024 : Shape := ⟨2, ![512, 1024]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8x512x1024, .f32⟩
  | .hbm, ⟨2, _⟩ => ⟨S8x512x1024, .f32⟩
  | .hbm, ⟨3, _⟩ => ⟨S8x1024x512, .f32⟩
  | .hbm, ⟨4, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1024x512, .f32⟩
  | .local _ .vmem, ⟨7, _⟩ => ⟨S1x1024x512, .f32⟩
  | .local _ .vmem, ⟨8, _⟩ => ⟨S1024x512, .f32⟩
  | .local _ .vmem, ⟨9, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  dot_S1024x512_S512x1024_S1024x1024_1_0_0_1_n_n_wf : DotDims.WF S1024x512 S512x1024 S1024x1024 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x512x1024.size a
  hwx0_1 : ∀ i : grid0.Coords, EltTy.bits .f32 = 32 ∨ (Rect.block (s := S8x512x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x512x1024.size a
  hwx0_2 : ∀ i : grid0.Coords, EltTy.bits .f32 = 32 ∨ (Rect.block (s := S8x512x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S8x1024x512.size a
  hwx0_3 : ∀ i : grid0.Coords, EltTy.bits .f32 = 32 ∨ (Rect.block (s := S8x1024x512) S1x1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x512.size a
  hwx0_4 : ∀ i : grid0.Coords, EltTy.bits .f32 = 32 ∨ (Rect.block (s := S8192x512) S1024x512.size (cc0_transform_4 i) (hinb0_4 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x512 : Shape := ⟨2, ![8192, 512]⟩
abbrev S8x512x1024 : Shape := ⟨3, ![8, 512, 1024]⟩
abbrev S8x1024x512 : Shape := ⟨3, ![8, 1024, 512]⟩
abbrev S_ : Shape := ⟨0, ![]⟩
abbrev S1024x512 : Shape := ⟨2, ![1024, 512]⟩
abbrev S1x512x1024 : Shape := ⟨3, ![1, 512, 1024]⟩
abbrev S512x1024 : Shape := ⟨2, ![512, 1024]⟩
abbrev S1024x1024 : Shape := ⟨2, ![1024, 1024]⟩
abbrev S1x1024x512 : Shape := ⟨3, ![1, 1024, 512]⟩
abbrev S1 : Shape := ⟨1, ![1]⟩

abbrev nBuf : Space → Nat
  | .hbm => 204
  | .vmem => 0
  | .smem => 0
  | _ => 0

abbrev hbmTy0_0 (i : Nat) : BufTy := match i % 128 with
  | 0 => ⟨S8192x512, .f32⟩
  | 1 => ⟨S8x512x1024, .f32⟩
  | 2 => ⟨S8x512x1024, .f32⟩
  | 3 => ⟨S8x1024x512, .f32⟩
  | 4 => ⟨S_, .i32⟩
  | 5 => ⟨S_, .i32⟩
  | 6 => ⟨S1024x512, .f32⟩
  | 7 => ⟨S1x512x1024, .f32⟩
  | 8 => ⟨S512x1024, .f32⟩
  | 9 => ⟨S1024x1024, .f32⟩
  | 10 => ⟨S1024x1024, .f32⟩
  | 11 => ⟨S1024x1024, .f32⟩
  | 12 => ⟨S_, .f32⟩
  | 13 => ⟨S1024x1024, .f32⟩
  | 14 => ⟨S1024x1024, .f32⟩
  | 15 => ⟨S_, .f32⟩
  | 16 => ⟨S1024x1024, .f32⟩
  | 17 => ⟨S1024x1024, .f32⟩
  | 18 => ⟨S1024x1024, .f32⟩
  | 19 => ⟨S1x512x1024, .f32⟩
  | 20 => ⟨S512x1024, .f32⟩
  | 21 => ⟨S1024x1024, .f32⟩
  | 22 => ⟨S1024x1024, .f32⟩
  | 23 => ⟨S1x1024x512, .f32⟩
  | 24 => ⟨S1024x512, .f32⟩
  | 25 => ⟨S1024x512, .f32⟩
  | 26 => ⟨S_, .i32⟩
  | 27 => ⟨S1, .i32⟩
  | 28 => ⟨S8192x512, .f32⟩
  | 29 => ⟨S_, .i32⟩
  | 30 => ⟨S_, .i32⟩
  | 31 => ⟨S1024x512, .f32⟩
  | 32 => ⟨S1x512x1024, .f32⟩
  | 33 => ⟨S512x1024, .f32⟩
  | 34 => ⟨S1024x1024, .f32⟩
  | 35 => ⟨S1024x1024, .f32⟩
  | 36 => ⟨S1024x1024, .f32⟩
  | 37 => ⟨S_, .f32⟩
  | 38 => ⟨S1024x1024, .f32⟩
  | 39 => ⟨S1024x1024, .f32⟩
  | 40 => ⟨S_, .f32⟩
  | 41 => ⟨S1024x1024, .f32⟩
  | 42 => ⟨S1024x1024, .f32⟩
  | 43 => ⟨S1024x1024, .f32⟩
  | 44 => ⟨S1x512x1024, .f32⟩
  | 45 => ⟨S512x1024, .f32⟩
  | 46 => ⟨S1024x1024, .f32⟩
  | 47 => ⟨S1024x1024, .f32⟩
  | 48 => ⟨S1x1024x512, .f32⟩
  | 49 => ⟨S1024x512, .f32⟩
  | 50 => ⟨S1024x512, .f32⟩
  | 51 => ⟨S_, .i32⟩
  | 52 => ⟨S1, .i32⟩
  | 53 => ⟨S8192x512, .f32⟩
  | 54 => ⟨S_, .i32⟩
  | 55 => ⟨S_, .i32⟩
  | 56 => ⟨S1024x512, .f32⟩
  | 57 => ⟨S1x512x1024, .f32⟩
  | 58 => ⟨S512x1024, .f32⟩
  | 59 => ⟨S1024x1024, .f32⟩
  | 60 => ⟨S1024x1024, .f32⟩
  | 61 => ⟨S1024x1024, .f32⟩
  | 62 => ⟨S_, .f32⟩
  | 63 => ⟨S1024x1024, .f32⟩
  | 64 => ⟨S1024x1024, .f32⟩
  | 65 => ⟨S_, .f32⟩
  | 66 => ⟨S1024x1024, .f32⟩
  | 67 => ⟨S1024x1024, .f32⟩
  | 68 => ⟨S1024x1024, .f32⟩
  | 69 => ⟨S1x512x1024, .f32⟩
  | 70 => ⟨S512x1024, .f32⟩
  | 71 => ⟨S1024x1024, .f32⟩
  | 72 => ⟨S1024x1024, .f32⟩
  | 73 => ⟨S1x1024x512, .f32⟩
  | 74 => ⟨S1024x512, .f32⟩
  | 75 => ⟨S1024x512, .f32⟩
  | 76 => ⟨S_, .i32⟩
  | 77 => ⟨S1, .i32⟩
  | 78 => ⟨S8192x512, .f32⟩
  | 79 => ⟨S_, .i32⟩
  | 80 => ⟨S_, .i32⟩
  | 81 => ⟨S1024x512, .f32⟩
  | 82 => ⟨S1x512x1024, .f32⟩
  | 83 => ⟨S512x1024, .f32⟩
  | 84 => ⟨S1024x1024, .f32⟩
  | 85 => ⟨S1024x1024, .f32⟩
  | 86 => ⟨S1024x1024, .f32⟩
  | 87 => ⟨S_, .f32⟩
  | 88 => ⟨S1024x1024, .f32⟩
  | 89 => ⟨S1024x1024, .f32⟩
  | 90 => ⟨S_, .f32⟩
  | 91 => ⟨S1024x1024, .f32⟩
  | 92 => ⟨S1024x1024, .f32⟩
  | 93 => ⟨S1024x1024, .f32⟩
  | 94 => ⟨S1x512x1024, .f32⟩
  | 95 => ⟨S512x1024, .f32⟩
  | 96 => ⟨S1024x1024, .f32⟩
  | 97 => ⟨S1024x1024, .f32⟩
  | 98 => ⟨S1x1024x512, .f32⟩
  | 99 => ⟨S1024x512, .f32⟩
  | 100 => ⟨S1024x512, .f32⟩
  | 101 => ⟨S_, .i32⟩
  | 102 => ⟨S1, .i32⟩
  | 103 => ⟨S8192x512, .f32⟩
  | 104 => ⟨S_, .i32⟩
  | 105 => ⟨S_, .i32⟩
  | 106 => ⟨S1024x512, .f32⟩
  | 107 => ⟨S1x512x1024, .f32⟩
  | 108 => ⟨S512x1024, .f32⟩
  | 109 => ⟨S1024x1024, .f32⟩
  | 110 => ⟨S1024x1024, .f32⟩
  | 111 => ⟨S1024x1024, .f32⟩
  | 112 => ⟨S_, .f32⟩
  | 113 => ⟨S1024x1024, .f32⟩
  | 114 => ⟨S1024x1024, .f32⟩
  | 115 => ⟨S_, .f32⟩
  | 116 => ⟨S1024x1024, .f32⟩
  | 117 => ⟨S1024x1024, .f32⟩
  | 118 => ⟨S1024x1024, .f32⟩
  | 119 => ⟨S1x512x1024, .f32⟩
  | 120 => ⟨S512x1024, .f32⟩
  | 121 => ⟨S1024x1024, .f32⟩
  | 122 => ⟨S1024x1024, .f32⟩
  | 123 => ⟨S1x1024x512, .f32⟩
  | 124 => ⟨S1024x512, .f32⟩
  | 125 => ⟨S1024x512, .f32⟩
  | 126 => ⟨S_, .i32⟩
  | 127 => ⟨S1, .i32⟩
  | _ => ⟨S8192x512, .f32⟩

abbrev hbmTy0_1 (i : Nat) : BufTy := match i % 128 with
  | 0 => ⟨S8192x512, .f32⟩
  | 1 => ⟨S_, .i32⟩
  | 2 => ⟨S_, .i32⟩
  | 3 => ⟨S1024x512, .f32⟩
  | 4 => ⟨S1x512x1024, .f32⟩
  | 5 => ⟨S512x1024, .f32⟩
  | 6 => ⟨S1024x1024, .f32⟩
  | 7 => ⟨S1024x1024, .f32⟩
  | 8 => ⟨S1024x1024, .f32⟩
  | 9 => ⟨S_, .f32⟩
  | 10 => ⟨S1024x1024, .f32⟩
  | 11 => ⟨S1024x1024, .f32⟩
  | 12 => ⟨S_, .f32⟩
  | 13 => ⟨S1024x1024, .f32⟩
  | 14 => ⟨S1024x1024, .f32⟩
  | 15 => ⟨S1024x1024, .f32⟩
  | 16 => ⟨S1x512x1024, .f32⟩
  | 17 => ⟨S512x1024, .f32⟩
  | 18 => ⟨S1024x1024, .f32⟩
  | 19 => ⟨S1024x1024, .f32⟩
  | 20 => ⟨S1x1024x512, .f32⟩
  | 21 => ⟨S1024x512, .f32⟩
  | 22 => ⟨S1024x512, .f32⟩
  | 23 => ⟨S_, .i32⟩
  | 24 => ⟨S1, .i32⟩
  | 25 => ⟨S8192x512, .f32⟩
  | 26 => ⟨S_, .i32⟩
  | 27 => ⟨S_, .i32⟩
  | 28 => ⟨S1024x512, .f32⟩
  | 29 => ⟨S1x512x1024, .f32⟩
  | 30 => ⟨S512x1024, .f32⟩
  | 31 => ⟨S1024x1024, .f32⟩
  | 32 => ⟨S1024x1024, .f32⟩
  | 33 => ⟨S1024x1024, .f32⟩
  | 34 => ⟨S_, .f32⟩
  | 35 => ⟨S1024x1024, .f32⟩
  | 36 => ⟨S1024x1024, .f32⟩
  | 37 => ⟨S_, .f32⟩
  | 38 => ⟨S1024x1024, .f32⟩
  | 39 => ⟨S1024x1024, .f32⟩
  | 40 => ⟨S1024x1024, .f32⟩
  | 41 => ⟨S1x512x1024, .f32⟩
  | 42 => ⟨S512x1024, .f32⟩
  | 43 => ⟨S1024x1024, .f32⟩
  | 44 => ⟨S1024x1024, .f32⟩
  | 45 => ⟨S1x1024x512, .f32⟩
  | 46 => ⟨S1024x512, .f32⟩
  | 47 => ⟨S1024x512, .f32⟩
  | 48 => ⟨S_, .i32⟩
  | 49 => ⟨S1, .i32⟩
  | 50 => ⟨S8192x512, .f32⟩
  | 51 => ⟨S_, .i32⟩
  | 52 => ⟨S_, .i32⟩
  | 53 => ⟨S1024x512, .f32⟩
  | 54 => ⟨S1x512x1024, .f32⟩
  | 55 => ⟨S512x1024, .f32⟩
  | 56 => ⟨S1024x1024, .f32⟩
  | 57 => ⟨S1024x1024, .f32⟩
  | 58 => ⟨S1024x1024, .f32⟩
  | 59 => ⟨S_, .f32⟩
  | 60 => ⟨S1024x1024, .f32⟩
  | 61 => ⟨S1024x1024, .f32⟩
  | 62 => ⟨S_, .f32⟩
  | 63 => ⟨S1024x1024, .f32⟩
  | 64 => ⟨S1024x1024, .f32⟩
  | 65 => ⟨S1024x1024, .f32⟩
  | 66 => ⟨S1x512x1024, .f32⟩
  | 67 => ⟨S512x1024, .f32⟩
  | 68 => ⟨S1024x1024, .f32⟩
  | 69 => ⟨S1024x1024, .f32⟩
  | 70 => ⟨S1x1024x512, .f32⟩
  | 71 => ⟨S1024x512, .f32⟩
  | 72 => ⟨S1024x512, .f32⟩
  | 73 => ⟨S_, .i32⟩
  | 74 => ⟨S1, .i32⟩
  | 75 => ⟨S8192x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_4 : Ref sig .tc := ⟨.hbm, 51, rfl⟩
abbrev main_v26 : Ref sig .tc := ⟨.hbm, 52, rfl⟩
abbrev main_v27 : Ref sig .tc := ⟨.hbm, 53, rfl⟩
abbrev main_c_5 : Ref sig .tc := ⟨.hbm, 54, rfl⟩
abbrev main_c_6 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_call2_v0 : Ref sig .tc := ⟨.hbm, 60, rfl⟩
abbrev main_call2_v1 : Ref sig .tc := ⟨.hbm, 61, rfl⟩
abbrev main_call2_cst : Ref sig .tc := ⟨.hbm, 62, rfl⟩
abbrev main_call2_v2 : Ref sig .tc := ⟨.hbm, 63, rfl⟩
abbrev main_call2_v3 : Ref sig .tc := ⟨.hbm, 64, rfl⟩
abbrev main_call2_cst_0 : Ref sig .tc := ⟨.hbm, 65, rfl⟩
abbrev main_call2_v4 : Ref sig .tc := ⟨.hbm, 66, rfl⟩
abbrev main_call2_v5 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_c_7 : Ref sig .tc := ⟨.hbm, 76, rfl⟩
abbrev main_v40 : Ref sig .tc := ⟨.hbm, 77, rfl⟩
abbrev main_v41 : Ref sig .tc := ⟨.hbm, 78, rfl⟩
abbrev main_c_8 : Ref sig .tc := ⟨.hbm, 79, rfl⟩
abbrev main_c_9 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_call3_v0 : Ref sig .tc := ⟨.hbm, 85, rfl⟩
abbrev main_call3_v1 : Ref sig .tc := ⟨.hbm, 86, rfl⟩
abbrev main_call3_cst : Ref sig .tc := ⟨.hbm, 87, rfl⟩
abbrev main_call3_v2 : Ref sig .tc := ⟨.hbm, 88, rfl⟩
abbrev main_call3_v3 : Ref sig .tc := ⟨.hbm, 89, rfl⟩
abbrev main_call3_cst_0 : Ref sig .tc := ⟨.hbm, 90, rfl⟩
abbrev main_call3_v4 : Ref sig .tc := ⟨.hbm, 91, rfl⟩
abbrev main_call3_v5 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_c_10 : Ref sig .tc := ⟨.hbm, 101, rfl⟩
abbrev main_v54 : Ref sig .tc := ⟨.hbm, 102, rfl⟩
abbrev main_v55 : Ref sig .tc := ⟨.hbm, 103, rfl⟩
abbrev main_c_11 : Ref sig .tc := ⟨.hbm, 104, rfl⟩
abbrev main_c_12 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_call4_v0 : Ref sig .tc := ⟨.hbm, 110, rfl⟩
abbrev main_call4_v1 : Ref sig .tc := ⟨.hbm, 111, rfl⟩
abbrev main_call4_cst : Ref sig .tc := ⟨.hbm, 112, rfl⟩
abbrev main_call4_v2 : Ref sig .tc := ⟨.hbm, 113, rfl⟩
abbrev main_call4_v3 : Ref sig .tc := ⟨.hbm, 114, rfl⟩
abbrev main_call4_cst_0 : Ref sig .tc := ⟨.hbm, 115, rfl⟩
abbrev main_call4_v4 : Ref sig .tc := ⟨.hbm, 116, rfl⟩
abbrev main_call4_v5 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_c_13 : Ref sig .tc := ⟨.hbm, 126, rfl⟩
abbrev main_v68 : Ref sig .tc := ⟨.hbm, 127, rfl⟩
abbrev main_v69 : Ref sig .tc := ⟨.hbm, 128, rfl⟩
abbrev main_c_14 : Ref sig .tc := ⟨.hbm, 129, rfl⟩
abbrev main_c_15 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_call5_v0 : Ref sig .tc := ⟨.hbm, 135, rfl⟩
abbrev main_call5_v1 : Ref sig .tc := ⟨.hbm, 136, rfl⟩
abbrev main_call5_cst : Ref sig .tc := ⟨.hbm, 137, rfl⟩
abbrev main_call5_v2 : Ref sig .tc := ⟨.hbm, 138, rfl⟩
abbrev main_call5_v3 : Ref sig .tc := ⟨.hbm, 139, rfl⟩
abbrev main_call5_cst_0 : Ref sig .tc := ⟨.hbm, 140, rfl⟩
abbrev main_call5_v4 : Ref sig .tc := ⟨.hbm, 141, rfl⟩
abbrev main_call5_v5 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_c_16 : Ref sig .tc := ⟨.hbm, 151, rfl⟩
abbrev main_v82 : Ref sig .tc := ⟨.hbm, 152, rfl⟩
abbrev main_v83 : Ref sig .tc := ⟨.hbm, 153, rfl⟩
abbrev main_c_17 : Ref sig .tc := ⟨.hbm, 154, rfl⟩
abbrev main_c_18 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_call6_v0 : Ref sig .tc := ⟨.hbm, 160, rfl⟩
abbrev main_call6_v1 : Ref sig .tc := ⟨.hbm, 161, rfl⟩
abbrev main_call6_cst : Ref sig .tc := ⟨.hbm, 162, rfl⟩
abbrev main_call6_v2 : Ref sig .tc := ⟨.hbm, 163, rfl⟩
abbrev main_call6_v3 : Ref sig .tc := ⟨.hbm, 164, rfl⟩
abbrev main_call6_cst_0 : Ref sig .tc := ⟨.hbm, 165, rfl⟩
abbrev main_call6_v4 : Ref sig .tc := ⟨.hbm, 166, rfl⟩
abbrev main_call6_v5 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_c_19 : Ref sig .tc := ⟨.hbm, 176, rfl⟩
abbrev main_v96 : Ref sig .tc := ⟨.hbm, 177, rfl⟩
abbrev main_v97 : Ref sig .tc := ⟨.hbm, 178, rfl⟩
abbrev main_c_20 : Ref sig .tc := ⟨.hbm, 179, rfl⟩
abbrev main_c_21 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_call7_v0 : Ref sig .tc := ⟨.hbm, 185, rfl⟩
abbrev main_call7_v1 : Ref sig .tc := ⟨.hbm, 186, rfl⟩
abbrev main_call7_cst : Ref sig .tc := ⟨.hbm, 187, rfl⟩
abbrev main_call7_v2 : Ref sig .tc := ⟨.hbm, 188, rfl⟩
abbrev main_call7_v3 : Ref sig .tc := ⟨.hbm, 189, rfl⟩
abbrev main_call7_cst_0 : Ref sig .tc := ⟨.hbm, 190, rfl⟩
abbrev main_call7_v4 : Ref sig .tc := ⟨.hbm, 191, rfl⟩
abbrev main_call7_v5 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_v108 : Ref sig .tc := ⟨.hbm, 199, rfl⟩
abbrev main_v109 : Ref sig .tc := ⟨.hbm, 200, rfl⟩
abbrev main_c_22 : Ref sig .tc := ⟨.hbm, 201, rfl⟩
abbrev main_v110 : Ref sig .tc := ⟨.hbm, 202, rfl⟩
abbrev main_v111 : Ref sig .tc := ⟨.hbm, 203, rfl⟩

abbrev nD : Nat := 1
abbrev τ : Topo := Topo.v7x

variable {F : FTy → Type} [FloatOps F]

class Facts₀ : Prop where
  sliceFits_S8192x512_S1024x512 : S8192x512.Slices (fun _ => 0) S1024x512
  h_S_ : 0 < S_.numel
  slices_S8x512x1024_S1x512x1024_0_0_0 : S8x512x1024.Slices ![0, 0, 0] S1x512x1024
  shapeCasts_S1x512x1024_S512x1024 : S1x512x1024.ShapeCasts S512x1024
  bcast_S_S1024x1024 : S_.BroadcastsInDim S1024x1024 (![] : Fin 0 → Fin S1024x1024.rank)
  slices_S8x1024x512_S1x1024x512_0_0_0 : S8x1024x512.Slices ![0, 0, 0] S1x1024x512
  shapeCasts_S1x1024x512_S1024x512 : S1x1024x512.ShapeCasts S1024x512
  bcast_S_S1 : S_.BroadcastsInDim S1 (![] : Fin 0 → Fin S1.rank)
  slices_S8x512x1024_S1x512x1024_1_0_0 : S8x512x1024.Slices ![1, 0, 0] S1x512x1024
  slices_S8x1024x512_S1x1024x512_1_0_0 : S8x1024x512.Slices ![1, 0, 0] S1x1024x512
  slices_S8x512x1024_S1x512x1024_2_0_0 : S8x512x1024.Slices ![2, 0, 0] S1x512x1024
  slices_S8x1024x512_S1x1024x512_2_0_0 : S8x1024x512.Slices ![2, 0, 0] S1x1024x512
  slices_S8x512x1024_S1x512x1024_3_0_0 : S8x512x1024.Slices ![3, 0, 0] S1x512x1024
  slices_S8x1024x512_S1x1024x512_3_0_0 : S8x1024x512.Slices ![3, 0, 0] S1x1024x512
  slices_S8x512x1024_S1x512x1024_4_0_0 : S8x512x1024.Slices ![4, 0, 0] S1x512x1024
  slices_S8x1024x512_S1x1024x512_4_0_0 : S8x1024x512.Slices ![4, 0, 0] S1x1024x512
  slices_S8x512x1024_S1x512x1024_5_0_0 : S8x512x1024.Slices ![5, 0, 0] S1x512x1024
  slices_S8x1024x512_S1x1024x512_5_0_0 : S8x1024x512.Slices ![5, 0, 0] S1x1024x512
  slices_S8x512x1024_S1x512x1024_6_0_0 : S8x512x1024.Slices ![6, 0, 0] S1x512x1024
  slices_S8x1024x512_S1x1024x512_6_0_0 : S8x1024x512.Slices ![6, 0, 0] S1x1024x512
  slices_S8x512x1024_S1x512x1024_7_0_0 : S8x512x1024.Slices ![7, 0, 0] S1x512x1024
  slices_S8x1024x512_S1x1024x512_7_0_0 : S8x1024x512.Slices ![7, 0, 0] S1x1024x512
  dot_S1024x512_S512x1024_S1024x1024_1_0_0_1_n_n_wf : DotDims.WF S1024x512 S512x1024 S1024x1024 [1] [0] [0] [1] [] []
  dot_S1024x1024_S1024x512_S1024x512_1_0_0_1_n_n_wf : DotDims.WF S1024x1024 S1024x512 S1024x512 [1] [0] [0] [1] [] []
  scatter_S8192x512_S1_S1024x512_01_n_0_0_wf : ScatterDims.WF S8192x512 S1 S1024x512 [0, 1] [] [0] 0

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def scatter_S8192x512_S1_S1024x512_01_n_0_0 : ScatterDims S8192x512 S1 S1024x512 where
  updateWindowDims := [0, 1]
  insertedWindowDims := []
  scatterDimsToOperandDims := [0]
  indexVectorDim := 0
  wf := scatter_S8192x512_S1_S1024x512_01_n_0_0_wf

class Facts : Prop extends Facts₀ where

variable [Facts]
-- ==== Proof.Segment.lean ====
/-
  The specification: a gated feed-forward layer applied expert by expert to blocks of rows.

  The input `x` has 8192 rows of 512 features; the rows fall into 8 consecutive blocks of 1024, and block `e`
  is processed by expert `e`'s three weight matrices: `wg e`, `wu e` (512 × 1024, the expansion) and `wd e`
  (1024 × 512, the contraction). For a block `xs` of rows,

      gate = xs · wg e        up = xs · wu e        (1024 × 1024 each, sums over the 512 features)
      out  = ((gate * σ(gate)) * up) · wd e         (a sum over the 1024 hidden units)

  with `σ t = 1 / (1 + e^(-t))` the logistic function, everything on the extended reals. `expert` is this
  function of the whole argument arrays for one `e`; `layer` is the whole result: row `r` of the result is
  row `r % 1024` of expert `r / 1024`'s output (`layer_block`).

  No program is mentioned here: the matrix products are the library's `Host.dotGeneral` over the two
  contraction records below (rows × columns, no batch axis), a block of rows and an expert's weight matrix are
  the library's `extractStridedSlice`, and the leading unit axis of a weight slab is dropped by `shapeCast`.
-/
import Idealize.ShloMosaic.PureOps.Ideal
import Idealize.ShloMosaic.PureOps.Ideal.Laws
import Idealize.ShloMosaic.Lib.ValueIdx

noncomputable section

namespace Cert.Ffn

open Idealize.ShloMosaic Idealize.ShloMosaic.ValueIdx

/-- The input and the result: 8192 rows of 512 features. -/
abbrev Sx : Shape := ⟨2, ![8192, 512]⟩
/-- The expansion weights: per expert a 512 × 1024 matrix. -/
abbrev Swe : Shape := ⟨3, ![8, 512, 1024]⟩
/-- The contraction weights: per expert a 1024 × 512 matrix. -/
abbrev Swc : Shape := ⟨3, ![8, 1024, 512]⟩
/-- One block of rows, and one contraction matrix. -/
abbrev Sb : Shape := ⟨2, ![1024, 512]⟩
/-- One expert's slab of the expansion weights, its leading axis kept. -/
abbrev Se1 : Shape := ⟨3, ![1, 512, 1024]⟩
/-- One expert's slab of the contraction weights, its leading axis kept. -/
abbrev Sc1 : Shape := ⟨3, ![1, 1024, 512]⟩
/-- One expansion matrix. -/
abbrev Se : Shape := ⟨2, ![512, 1024]⟩
/-- The hidden activations of one block: 1024 rows of 1024 units. -/
abbrev Sh : Shape := ⟨2, ![1024, 1024]⟩

/-- Rows of a block times an expansion matrix: contract the 512 features. -/
def dExpand : DotDims Sb Se Sh where
  lhsContracting := [1]
  rhsContracting := [0]
  lhsNonContracting := [0]
  rhsNonContracting := [1]
  lhsBatch := []
  rhsBatch := []

/-- Hidden activations times a contraction matrix: contract the 1024 hidden units. -/
def dContract : DotDims Sh Sb Sb where
  lhsContracting := [1]
  rhsContracting := [0]
  lhsNonContracting := [0]
  rhsNonContracting := [1]
  lhsBatch := []
  rhsBatch := []

/-- Dropping a slab's leading unit axis keeps the number of elements. -/
theorem castE : Se1.ShapeCasts Se := by decide
theorem castC : Sc1.ShapeCasts Sb := by decide

/-- The layer on one block of rows `xs` with one expert's weight slabs. -/
def seg (xs : FVec Ideal Sb .f32) (wg wu : FVec Ideal Se1 .f32) (wd : FVec Ideal Sc1 .f32) : FVec Ideal Sb .f32 :=
  Host.dotGeneral dContract none
    (mulf (mulf (Host.dotGeneral dExpand none xs (shapeCast Se wg castE))
                (logistic (Host.dotGeneral dExpand none xs (shapeCast Se wg castE))))
          (Host.dotGeneral dExpand none xs (shapeCast Se wu castE)))
    (shapeCast Sb wd castC)

/-- Block `e` of the rows fits in the input. -/
theorem slicesX (e : Fin 8) : Sx.Slices ![1024 * e.val, 0] Sb :=
  ⟨rfl, fun a => by
    have he : e.val < 8 := e.isLt
    match a with
    | ⟨0, _⟩ => show 1024 * e.val + 1024 ≤ 8192; omega
    | ⟨1, _⟩ => show 0 + 512 ≤ 512; omega⟩

/-- Expert `e`'s slab fits in the expansion weights. -/
theorem slicesE (e : Fin 8) : Swe.Slices ![e.val, 0, 0] Se1 :=
  ⟨rfl, fun a => by
    have he : e.val < 8 := e.isLt
    match a with
    | ⟨0, _⟩ => show e.val + 1 ≤ 8; omega
    | ⟨1, _⟩ => show 0 + 512 ≤ 512; omega
    | ⟨2, _⟩ => show 0 + 1024 ≤ 1024; omega⟩

/-- Expert `e`'s slab fits in the contraction weights. -/
theorem slicesC (e : Fin 8) : Swc.Slices ![e.val, 0, 0] Sc1 :=
  ⟨rfl, fun a => by
    have he : e.val < 8 := e.isLt
    match a with
    | ⟨0, _⟩ => show e.val + 1 ≤ 8; omega
    | ⟨1, _⟩ => show 0 + 1024 ≤ 1024; omega
    | ⟨2, _⟩ => show 0 + 512 ≤ 512; omega⟩

/-- Expert `e`'s output: the layer on block `e` of the rows with expert `e`'s weights. -/
def expert (x : FVec Ideal Sx .f32) (wg wu : FVec Ideal Swe .f32) (wd : FVec Ideal Swc .f32) (e : Fin 8) : FVec Ideal Sb .f32 :=
  seg (extractStridedSlice Sb ![1024 * e.val, 0] x (slicesX e))
      (extractStridedSlice Se1 ![e.val, 0, 0] wg (slicesE e))
      (extractStridedSlice Se1 ![e.val, 0, 0] wu (slicesE e))
      (extractStridedSlice Sc1 ![e.val, 0, 0] wd (slicesC e))

/-- The whole result: row `r` is row `r % 1024` of expert `r / 1024`'s output. -/
def layer (x : FVec Ideal Sx .f32) (wg wu : FVec Ideal Swe .f32) (wd : FVec Ideal Swc .f32) : FVec Ideal Sx .f32 :=
  fun i => expert x wg wu wd ⟨(i 0).val / 1024, by have := idx2_lt0 i; show (i 0).val / 1024 < 8; omega⟩
    (ix2 ⟨(i 0).val % 1024, Nat.mod_lt _ (by decide)⟩ (i 1))

/-- Read by blocks: at row `1024 * e + r`, column `q`, the result is expert `e`'s output at `(r, q)`. -/
theorem layer_block (x : FVec Ideal Sx .f32) (wg wu : FVec Ideal Swe .f32) (wd : FVec Ideal Swc .f32) (e : Fin 8)
    (j : Sb.Idx) (i : Sx.Idx) (h0 : (i 0).val = 1024 * e.val + (j 0).val) (h1 : (i 1).val = (j 1).val) :
    layer x wg wu wd i = expert x wg wu wd e j := by
  have hj : (j 0).val < 1024 := (j 0).isLt
  have he : (⟨(i 0).val / 1024, by have := idx2_lt0 i; show (i 0).val / 1024 < 8; omega⟩ : Fin 8) = e :=
    Fin.ext (by show (i 0).val / 1024 = e.val; omega)
  have hjj : (ix2 ⟨(i 0).val % 1024, Nat.mod_lt _ (by decide)⟩ (i 1) : Sb.Idx) = j := by
    funext a
    match a with
    | ⟨0, _⟩ => exact Fin.ext (by show (i 0).val % 1024 = (j 0).val; omega)
    | ⟨1, _⟩ => exact Fin.ext h1
  show expert x wg wu wd _ _ = _
  rw [he, hjj]

end Cert.Ffn

end
-- ==== Proof.KernelValue.lean ====
/-
  The idealized kernel computes the layer (`Cert.Ffn.layer`).

  The kernel runs over a grid of 8 points. At point `t` it is handed block `t` of the rows (1024 × 512) and
  expert `t`'s three weight slabs, and writes back block `t` of the result. Its body narrows each operand to
  bf16, multiplies into a zero accumulator and gates with the logistic function: at the extended reals narrowing is
  the identity and the zero adds nothing, so the body's one stored value is `Cert.Ffn.seg` of the four loaded
  blocks (`pay_eq_seg`). Each loaded block is a slice of its argument array at the point's offset
  (`rows_eq`, `gate_eq`, `up_eq`, `down_eq`), so what point `t` writes back is block `t` of the layer
  (`flushed_eq`); the 8 blocks of 1024 rows cover all 8192 rows (`cover`), so the result array ends holding the
  layer (`final`, `run`).
-/
import proofs.«178077_g65764539236544_cont_9to1_m_395_16_alg».proof.Proof.Gen.KernelIdeal.Value
import proofs.«178077_g65764539236544_cont_9to1_m_395_16_alg».proof.Proof.Segment
import Idealize.ShloMosaic.PureOps.Ideal.Laws
import Idealize.ShloMosaic.Lib.Pipeline.Value
import Idealize.ShloMosaic.Lib.ValueIdx

noncomputable section

namespace Cert.KernelIdeal.Layer

open Cert.KernelIdeal Cert.KernelIdeal.Gen Idealize.ShloMosaic Idealize.ShloMosaic.TcCoe Idealize.SL.Sem
open Idealize.ShloMosaic.Pipeline (Dat)
open Cert.Ffn Idealize.ShloMosaic.ValueIdx

/-- The kernel's two contraction records are the specification's: rows × columns, no batch axis. -/
theorem dExpand_eq : dot_S1024x512_S512x1024_S1024x1024_1_0_0_1_n_n = dExpand := rfl
theorem dContract_eq : dot_S1024x1024_S1024x512_S1024x512_1_0_0_1_n_n = dContract := rfl

/-- A matrix product into a zero accumulator, of operands narrowed to bf16 on the way in, is at the extended
    reals the plain product of the operands: narrowing is the identity there and the zero adds nothing. -/
theorem matmul_zero_apply {sl sr so : Shape} (d : DotDims sl sr so) (a : FVec Ideal sl .f32) (b : FVec Ideal sr .f32)
    (h1 h2 : FTy.bits .bf16 < FTy.bits .f32) (j : so.Idx) :
    matmul d none (truncf .bf16 a h1) (truncf .bf16 b h2) (constant so .f32 0x00000000#32) j
      = Host.dotGeneral d none a b j := by
  simp only [matmul, Host.dotGeneral]
  rw [Ideal.matmul_constant_zero_apply, Ideal.dotGeneral_apply]
  rfl

/-- The body's stored value is the layer on the loaded block of rows with the loaded weight slabs: its three matrix
    products are plain products of the un-narrowed operands (`matmul_zero_apply`), and the gate is `g * σ(g)` as written. -/
theorem pay_eq_seg (v0 : Vec Ideal S1024x512 .f32) (v2 v5 : Vec Ideal S1x512x1024 .f32) (v14 : Vec Ideal S1x1024x512 .f32) :
    k0_pay1 (F := Ideal) v0 v2 v5 v14 = seg v0 v2 v5 v14 := by
  have hx : ∀ w : FVec Ideal Se1 .f32,
      matmul dot_S1024x512_S512x1024_S1024x1024_1_0_0_1_n_n none (truncf .bf16 v0 bitsLt_bf16_f32)
        (truncf .bf16 (shapeCast S512x1024 w shapeCasts_S1x512x1024_S512x1024) bitsLt_bf16_f32) (constant S1024x1024 .f32 0x00000000#32)
      = Host.dotGeneral (F := Ideal) (φ₁ := .f32) (φ₂ := .f32) dExpand none v0 (shapeCast Se w castE) := by
    intro w
    funext p
    rw [matmul_zero_apply, dExpand_eq]
  funext j
  unfold k0_pay1 seg
  rw [matmul_zero_apply, hx v2, hx v5, dContract_eq]

variable (m : (ℓ : Loc nD τ sig) → Buf (Elt Ideal) ℓ) (ρ : Dev nD → PrngReg)

/-- Every load and the one store of the body start at the origin of their buffer. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The grid has 8 points. -/
theorem N_eq : cfg0.N = 8 := by decide

/-- A grid point as the number of the expert (and of the block of rows) it works on. -/
def pt (t : Fin cfg0.N) : Fin 8 := Fin.cast N_eq t

/-- The index maps over the grid: at point `t` every window is at block `t` along its leading axis and at block
    0 along the others. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 2) = t.val ∧ win0_4.index t (1 : Fin 2) = 0 :=
  (by decide +kernel : ∀ t : Fin grid0.N, _)

/-- The block of rows point `t` is handed is rows `1024 t … 1024 t + 1023` of the input. -/
theorem rows_eq (c : Dev nD) (t : Fin cfg0.N) :
    (iblk m c 0 t : Vec Ideal S1024x512 .f32) = extractStridedSlice Sb ![1024 * (pt t).val, 0] (V m c main_arg0) (slicesX (pt t)) := by
  obtain ⟨e0, e1, -⟩ := idx_facts t
  funext y
  unfold iblk extractStridedSlice
  show V m c main_arg0 (((cfg0.win 0).blk t).view.emb y) = V m c main_arg0 _
  refine congrArg (V m c main_arg0) (funext fun a => Fin.ext ?_)
  match a with
  | ⟨0, _⟩ => show win0_0.index t (0 : Fin 2) * 1024 + 1 * (y 0).val = 1024 * t.val + (y 0).val; omega
  | ⟨1, _⟩ => show win0_0.index t (1 : Fin 2) * 512 + 1 * (y 1).val = 0 + (y 1).val; omega

/-- The gate slab point `t` is handed is expert `t`'s matrix of the first expansion weights. -/
theorem gate_eq (c : Dev nD) (t : Fin cfg0.N) :
    (iblk m c 1 t : Vec Ideal S1x512x1024 .f32) = extractStridedSlice Se1 ![(pt t).val, 0, 0] (V m c main_arg1) (slicesE (pt t)) := by
  obtain ⟨-, -, e0, e1, e2, -⟩ := idx_facts t
  funext y
  unfold iblk extractStridedSlice
  show V m c main_arg1 (((cfg0.win 1).blk t).view.emb y) = V m c main_arg1 _
  refine congrArg (V m c main_arg1) (funext fun a => Fin.ext ?_)
  match a with
  | ⟨0, _⟩ => show win0_1.index t (0 : Fin 3) * 1 + 1 * (y 0).val = t.val + (y 0).val; omega
  | ⟨1, _⟩ => show win0_1.index t (1 : Fin 3) * 512 + 1 * (y 1).val = 0 + (y 1).val; omega
  | ⟨2, _⟩ => show win0_1.index t (2 : Fin 3) * 1024 + 1 * (y 2).val = 0 + (y 2).val; omega

/-- The up slab point `t` is handed is expert `t`'s matrix of the second expansion weights. -/
theorem up_eq (c : Dev nD) (t : Fin cfg0.N) :
    (iblk m c 2 t : Vec Ideal S1x512x1024 .f32) = extractStridedSlice Se1 ![(pt t).val, 0, 0] (V m c main_arg2) (slicesE (pt t)) := by
  obtain ⟨-, -, -, -, -, e0, e1, e2, -⟩ := idx_facts t
  funext y
  unfold iblk extractStridedSlice
  show V m c main_arg2 (((cfg0.win 2).blk t).view.emb y) = V m c main_arg2 _
  refine congrArg (V m c main_arg2) (funext fun a => Fin.ext ?_)
  match a with
  | ⟨0, _⟩ => show win0_2.index t (0 : Fin 3) * 1 + 1 * (y 0).val = t.val + (y 0).val; omega
  | ⟨1, _⟩ => show win0_2.index t (1 : Fin 3) * 512 + 1 * (y 1).val = 0 + (y 1).val; omega
  | ⟨2, _⟩ => show win0_2.index t (2 : Fin 3) * 1024 + 1 * (y 2).val = 0 + (y 2).val; omega

/-- The down slab point `t` is handed is expert `t`'s matrix of the contraction weights. -/
theorem down_eq (c : Dev nD) (t : Fin cfg0.N) :
    (iblk m c 3 t : Vec Ideal S1x1024x512 .f32) = extractStridedSlice Sc1 ![(pt t).val, 0, 0] (V m c main_arg3) (slicesC (pt t)) := by
  obtain ⟨-, -, -, -, -, -, -, -, e0, e1, e2, -⟩ := idx_facts t
  funext y
  unfold iblk extractStridedSlice
  show V m c main_arg3 (((cfg0.win 3).blk t).view.emb y) = V m c main_arg3 _
  refine congrArg (V m c main_arg3) (funext fun a => Fin.ext ?_)
  match a with
  | ⟨0, _⟩ => show win0_3.index t (0 : Fin 3) * 1 + 1 * (y 0).val = t.val + (y 0).val; omega
  | ⟨1, _⟩ => show win0_3.index t (1 : Fin 3) * 1024 + 1 * (y 1).val = 0 + (y 1).val; omega
  | ⟨2, _⟩ => show win0_3.index t (2 : Fin 3) * 512 + 1 * (y 2).val = 0 + (y 2).val; omega

/-- What point `t` writes back is block `t` of the layer of the argument arrays. -/
theorem flushed_eq (c : Dev nD) (t : Fin cfg0.N) :
    (dats m 0 c).flushed 4 t = ((cfg0.win 4).blk t).view.read (Elt Ideal)
      (layer (V m c main_arg0) (V m c main_arg1) (V m c main_arg2) (V m c main_arg3)) := by
  rw [Value.flushed4]
  unfold out0_4
  rw [View.canon_unit_zero hz2]
  simp only [View.ld_unit_zero (S := S1024x512) hz2, View.ld_unit_zero (S := S1x512x1024) hz3, View.ld_unit_zero (S := S1x1024x512) hz3]
  obtain ⟨-, -, -, -, -, -, -, -, -, -, -, e0, e1⟩ := idx_facts t
  funext j
  show k0_pay1 (F := Ideal) (iblk m c 0 t) (iblk m c 1 t) (iblk m c 2 t) (iblk m c 3 t) j
    = layer (V m c main_arg0) (V m c main_arg1) (V m c main_arg2) (V m c main_arg3) (((cfg0.win 4).blk t).view.emb j)
  have hl := layer_block (V m c main_arg0) (V m c main_arg1) (V m c main_arg2) (V m c main_arg3) (pt t) j
    (((cfg0.win 4).blk t).view.emb j)
    (by show win0_4.index t (0 : Fin 2) * 1024 + 1 * (j 0).val = 1024 * t.val + (j 0).val; omega)
    (by show win0_4.index t (1 : Fin 2) * 512 + 1 * (j 1).val = (j 1).val; omega)
  rw [hl]
  unfold expert
  rw [← rows_eq m c t, ← gate_eq m c t, ← up_eq m c t, ← down_eq m c t]
  exact congrFun (pay_eq_seg _ _ _ _) j

/-- An index of the result is in point `t`'s block iff each coordinate is in the block's range on its axis. -/
theorem mem_blk (t : Fin cfg0.N) (i : S8192x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v0).slice (win0_4.rect t)).set ↔ _
  rw [View.set_slice_whole, Rect.mem_set_unit]
  exact Iff.rfl

/-- Every row of the result is in some point's block: row `r` in the block of point `r / 1024`. -/
theorem cover (i : S8192x512.Idx) : ∃ t : Fin cfg0.N, (cfg0.win 4).flush t = true ∧ i ∈ ((cfg0.win 4).blk t).view.set := by
  have hi0 : (i 0).val < 8192 := (i 0).isLt
  have hi1 : (i 1).val < 512 := (i 1).isLt
  have ht : ∃ t : Fin cfg0.N, t.val = (i 0).val / 1024 := ⟨Fin.cast N_eq.symm ⟨(i 0).val / 1024, by omega⟩, rfl⟩
  obtain ⟨t, ht⟩ := ht
  obtain ⟨-, -, -, -, -, -, -, -, -, -, -, e0, e1⟩ := idx_facts t
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 512 ≤ (i 1).val ∧ (i 1).val < win0_4.index t (1 : Fin 2) * 512 + 512; omega

/-- The result array after the run is the layer of the argument arrays. -/
theorem final (c : Dev nD) : (dats m 0 c).arrAt 4 cfg0.N
    = layer (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_eq m c t) cover

/-- The kernel's run: every weakly fair execution ends with the result array at the layer of the arguments, the
    arguments unchanged. -/
theorem run : θ_run defs (onTc (τ := τ) (main (F := Ideal))) ⟨m, fun _ => 0, ρ⟩ fun r => ∀ c : Dev nD,
      r.2.mem ((c : Thread nD τ).loc main_v0)
        = layer (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Layer

end
-- ==== Proof.LibScatter.lean ====
/-
  A `stablehlo.scatter` whose body returns the update (`x.at[...].set(v)`), read at one index of the result.

  The operation is a left fold over every update index `j`, in row-major order: an update whose result index
  `d.resultIdx? j idx` lies inside the operand overwrites the element there, one that falls outside is dropped.
  Read at a single index `i` of the result this says:

  * if no update lands on `i`, the element is the operand's (`scatter_set_miss`);
  * if exactly one update `j` lands on `i`, the element is `upd j` (`scatter_set_hit`), whatever the order
    of the fold — every other step leaves the element at `i` alone.

  Both follow from one induction along the list of update numbers (`foldl_set_apply`): after the fold over a
  list in which `n₀` is the only number that can land on `i`, the element at `i` is update `n₀` if the list
  holds `n₀` and is unchanged otherwise.
-/
import Idealize.ShloMosaic.PureOps.ShapeOps

namespace Cert.Layer.Scatter

open Idealize.ShloMosaic

variable {s si u : Shape} {α : Type} {w : Nat}

/-- The fold of a set-scatter along a list `l` of update numbers, read at `i`: when `n₀` is the only number
    of `l` whose update can land on `i`, and it does land there, the element at `i` ends as update `n₀` if
    `n₀` is in `l`, and as it started otherwise. -/
theorem foldl_set_apply (d : ScatterDims s si u) (idx : IVec si w) (upd : u.Idx → α) (i : s.Idx) (n₀ : Fin u.numel)
    (hn₀ : d.resultIdx? (u.rowMajor.symm n₀) idx = some i) (l : List (Fin u.numel))
    (huniq : ∀ n ∈ l, d.resultIdx? (u.rowMajor.symm n) idx = some i → n = n₀) (r : s.Idx → α) :
    l.foldl (fun r n =>
        match d.resultIdx? (u.rowMajor.symm n) idx with
        | some i => fun i' => if i' = i then (fun (_ : α) (b : α) => b) (r i) (upd (u.rowMajor.symm n)) else r i'
        | none => r) r i
      = if n₀ ∈ l then upd (u.rowMajor.symm n₀) else r i := by
  induction l generalizing r with
  | nil => simp
  | cons a l ih =>
    rw [List.foldl_cons, ih (fun n hn => huniq n (List.mem_cons_of_mem _ hn))]
    by_cases hmem : n₀ ∈ l
    · rw [if_pos hmem, if_pos (List.mem_cons_of_mem _ hmem)]
    · rw [if_neg hmem]
      by_cases ha : a = n₀
      · subst ha
        rw [if_pos List.mem_cons_self]
        simp only [hn₀]
        exact if_pos trivial
      · have hnot : n₀ ∉ a :: l := fun h => by
          rcases List.mem_cons.1 h with h | h
          · exact ha h.symm
          · exact hmem h
        rw [if_neg hnot]
        have hstep := huniq a List.mem_cons_self
        generalize d.resultIdx? (u.rowMajor.symm a) idx = o at hstep
        cases o with
        | none => rfl
        | some i₁ =>
          have hne : i ≠ i₁ := fun e => ha (hstep (by rw [e]))
          show (if i = i₁ then _ else r i) = r i
          rw [if_neg hne]

/-- The fold of a set-scatter along a list none of whose updates lands on `i` leaves the element at `i`. -/
theorem foldl_set_apply_of_miss (d : ScatterDims s si u) (idx : IVec si w) (upd : u.Idx → α) (i : s.Idx)
    (l : List (Fin u.numel)) (hmiss : ∀ n ∈ l, d.resultIdx? (u.rowMajor.symm n) idx ≠ some i) (r : s.Idx → α) :
    l.foldl (fun r n =>
        match d.resultIdx? (u.rowMajor.symm n) idx with
        | some i => fun i' => if i' = i then (fun (_ : α) (b : α) => b) (r i) (upd (u.rowMajor.symm n)) else r i'
        | none => r) r i
      = r i := by
  induction l generalizing r with
  | nil => rfl
  | cons a l ih =>
    rw [List.foldl_cons, ih (fun n hn => hmiss n (List.mem_cons_of_mem _ hn))]
    have hstep := hmiss a List.mem_cons_self
    generalize d.resultIdx? (u.rowMajor.symm a) idx = o at hstep
    cases o with
    | none => rfl
    | some i₁ =>
      have hne : i ≠ i₁ := fun e => hstep (by rw [e])
      show (if i = i₁ then _ else r i) = r i
      rw [if_neg hne]

/-- A set-scatter read at an index `i` on which exactly one update `j` lands: the element is `upd j`. -/
theorem scatter_set_hit (d : ScatterDims s si u) (x : s.Idx → α) (idx : IVec si w) (upd : u.Idx → α) (i : s.Idx)
    (j : u.Idx) (hj : d.resultIdx? j idx = some i) (huniq : ∀ j', d.resultIdx? j' idx = some i → j' = j) :
    Host.scatter d (fun _ b => b) x idx upd i = upd j := by
  refine (foldl_set_apply d idx upd i (u.rowMajor j) (by rw [Equiv.symm_apply_apply]; exact hj) (List.finRange u.numel)
    (fun n _ hn => by rw [← huniq _ hn, Equiv.apply_symm_apply]) x).trans ?_
  rw [if_pos (List.mem_finRange _), Equiv.symm_apply_apply]

/-- A set-scatter read at an index `i` on which no update lands: the element is the operand's. -/
theorem scatter_set_miss (d : ScatterDims s si u) (x : s.Idx → α) (idx : IVec si w) (upd : u.Idx → α) (i : s.Idx)
    (hmiss : ∀ j, d.resultIdx? j idx ≠ some i) :
    Host.scatter d (fun _ b => b) x idx upd i = x i :=
  foldl_set_apply_of_miss d idx upd i (List.finRange u.numel) (fun n _ => hmiss _) x

end Cert.Layer.Scatter
-- ==== Proof.RefValue.lean ====
/-
  The idealized reference computes the layer (`Cert.Ffn.layer`).

  The reference walks the 8 segments in order. For segment `e` it takes rows `1024 e … 1024 e + 1023` of the input
  by a dynamic slice at the constant start row `1024 e` (a static slice, since the start is in range: `rows_eq`),
  takes expert `e`'s three weight matrices by static slices, forms `((g * (1 / (1 + e^(-g)))) * u) · wd` with
  `g`, `u` the two expansions — the gate's quotient is the logistic function (`silu_eq`), so this is
  `Cert.Ffn.expert … e` (`refSeg_eq`) — and writes the 1024 × 512 result over rows `1024 e …` of the running
  result by a scatter whose one index is the start row. Update `(r, q)` of that scatter lands on
  `(1024 e + r, q)` (`resultIdx_eq`), distinct updates on distinct places, so by the general law for a
  scatter that sets (`Cert.Layer.Scatter`) the step replaces exactly block `e` of the rows by expert `e`'s output
  and keeps every other row (`scatter_rows_apply`, `refStep_apply`). After the 8 steps every row has been
  replaced by its expert's output: the result is the layer (`result_eq`, `run`).
-/
import proofs.«178077_g65764539236544_cont_9to1_m_395_16_alg».proof.Proof.Gen.ReferenceIdeal
import proofs.«178077_g65764539236544_cont_9to1_m_395_16_alg».proof.Proof.RefRun
import proofs.«178077_g65764539236544_cont_9to1_m_395_16_alg».proof.Proof.Segment
import proofs.«178077_g65764539236544_cont_9to1_m_395_16_alg».proof.Proof.LibScatter
import Idealize.ShloMosaic.PureOps.Ideal.Laws
import Idealize.ShloMosaic.Lib.DynamicIndex
import Idealize.ShloMosaic.Lib.ValueIdx

noncomputable section

namespace Cert.ReferenceIdeal.Layer

open Cert.ReferenceIdeal Cert.ReferenceIdeal.Gen Idealize.ShloMosaic Idealize.ShloMosaic.TcCoe Idealize.SL.Sem
open Cert.Ffn Idealize.ShloMosaic.ValueIdx Cert.Layer.Scatter

/-- The reference's two contraction records are the specification's: rows × columns, no batch axis. -/
theorem dExpand_eq : dot_S1024x512_S512x1024_S1024x1024_1_0_0_1_n_n = dExpand := rfl
theorem dContract_eq : dot_S1024x1024_S1024x512_S1024x512_1_0_0_1_n_n = dContract := rfl

/-- The word of the float 1.0 denotes the real number 1. -/
theorem ofBits_one : Ideal.ofBits .f32 0x3F800000#32 = 1 := by
  simp [Ideal.ofBits, Ideal.ieee, -EReal.coe_mul]; norm_num

/-- The reference spells the gate `g * (1 / (1 + e^(-g)))`: that is `g * σ(g)`. -/
theorem silu_eq (g : FVec Ideal S1024x1024 .f32) :
    mulf g (Host.divf (broadcastInDim S1024x1024 ![] bcast_S_S1024x1024 (constant S_ .f32 0x3F800000#32))
      (addf (broadcastInDim S1024x1024 ![] bcast_S_S1024x1024 (constant S_ .f32 0x3F800000#32)) (Host.exp (Host.negf g))))
    = mulf g (logistic g) := by
  funext p
  show FloatOps.mulf (g p) (FloatOps.hostDivf (Ideal.ofBits .f32 0x3F800000#32)
      (FloatOps.addf (Ideal.ofBits .f32 0x3F800000#32) (FloatOps.hostUnary .exp (FloatOps.hostNegf (g p)))))
    = FloatOps.mulf (g p) (FloatOps.logistic (g p))
  rw [ofBits_one]
  rfl

/-- The row at which block `e` starts, as a 32-bit word read signed, is `1024 e`. -/
theorem start_toInt (e : Fin 8) : (BitVec.ofNat 32 (1024 * e.val)).toInt = ((1024 * e.val : Nat) : Int) :=
  toInt_ofNat_of_lt (by have := e.isLt; omega)

/-- A dynamic slice of 1024 rows starting at row `1024 e`, column 0, is the static block `e` of the rows. -/
theorem rows_eq (x : FVec Ideal S8192x512 .f32) (e : Fin 8) :
    Host.dynamicSlice S1024x512 x (fun k => (((![constantI S_ 32 (BitVec.ofNat 32 (1024 * e.val)), constantI S_ 32 0#32] : Fin 2 → IVec S_ 32)) k (Shape.Idx.first h_S_)).toInt) sliceFits_S8192x512_S1024x512
      = extractStridedSlice Sb ![1024 * e.val, 0] x (slicesX e) := by
  refine Host.dynamicSlice_eq_extractStridedSlice S1024x512 x _ ![1024 * e.val, 0] sliceFits_S8192x512_S1024x512 (slicesX e) (fun a => ?_)
  match a with
  | ⟨0, _⟩ => exact start_toInt e
  | ⟨1, _⟩ => rfl

/-! ## One scatter of 1024 rows at row `1024 e` -/

/-- The scatter's index operand: the one start row, as a length-1 vector. -/
abbrev startVec (b : BitVec 32) : IVec S1 32 := broadcastInDim S1 ![] bcast_S_S1 (constantI S_ 32 b)

/-- The scatter's window starts at the index vector's one entry along the rows, and at 0 along the columns; the
    window's coordinates are the update's own (`window0`, `window1`). -/
theorem start0 (j : S1024x512.Idx) (b : BitVec 32) :
    scatter_S8192x512_S1_S1024x512_01_n_0_0.start j (startVec b) (0 : Fin 2) = b.toInt := by
  unfold ScatterDims.start
  rw [dif_pos (show (0 : Fin S8192x512.rank) ∈ scatter_S8192x512_S1_S1024x512_01_n_0_0.scatterDimsToOperandDims by decide)]
  rfl

theorem start1 (j : S1024x512.Idx) (b : BitVec 32) :
    scatter_S8192x512_S1_S1024x512_01_n_0_0.start j (startVec b) (1 : Fin 2) = 0 := by
  unfold ScatterDims.start
  rw [dif_neg (show ¬(1 : Fin S8192x512.rank) ∈ scatter_S8192x512_S1_S1024x512_01_n_0_0.scatterDimsToOperandDims by decide)]

theorem window0 (j : S1024x512.Idx) : scatter_S8192x512_S1_S1024x512_01_n_0_0.window j (0 : Fin 2) = (j 0).val := by
  unfold ScatterDims.window
  rw [dif_pos (show (0 : Fin S8192x512.rank) ∈ scatter_S8192x512_S1_S1024x512_01_n_0_0.sKept by decide)]
  rfl

theorem window1 (j : S1024x512.Idx) : scatter_S8192x512_S1_S1024x512_01_n_0_0.window j (1 : Fin 2) = (j 1).val := by
  unfold ScatterDims.window
  rw [dif_pos (show (1 : Fin S8192x512.rank) ∈ scatter_S8192x512_S1_S1024x512_01_n_0_0.sKept by decide)]
  rfl

/-- Update `(r, q)` of a scatter at start row `1024 n` lands on `(1024 n + r, q)`. -/
theorem resultIdx_eq (n : Nat) (hn : n < 8) (j : S1024x512.Idx) :
    scatter_S8192x512_S1_S1024x512_01_n_0_0.resultIdx? j (startVec (BitVec.ofNat 32 (1024 * n)))
      = some (ix2 (⟨1024 * n + (j 0).val, by have := idx2_lt0 j; omega⟩ : Fin 8192) (j 1)) := by
  have hj0 : (j 0).val < 1024 := idx2_lt0 j
  have hj1 : (j 1).val < 512 := idx2_lt1 j
  have hs : (BitVec.ofNat 32 (1024 * n)).toInt = ((1024 * n : Nat) : Int) := toInt_ofNat_of_lt (by omega)
  unfold ScatterDims.resultIdx?
  have h : ∀ a : Fin S8192x512.rank,
      0 ≤ scatter_S8192x512_S1_S1024x512_01_n_0_0.start j (startVec (BitVec.ofNat 32 (1024 * n))) a + scatter_S8192x512_S1_S1024x512_01_n_0_0.window j a
      ∧ scatter_S8192x512_S1_S1024x512_01_n_0_0.start j (startVec (BitVec.ofNat 32 (1024 * n))) a + scatter_S8192x512_S1_S1024x512_01_n_0_0.window j a < S8192x512.size a := fun a => by
    match a with
    | ⟨0, _⟩ =>
      show 0 ≤ scatter_S8192x512_S1_S1024x512_01_n_0_0.start j (startVec (BitVec.ofNat 32 (1024 * n))) (0 : Fin 2) + scatter_S8192x512_S1_S1024x512_01_n_0_0.window j (0 : Fin 2)
        ∧ scatter_S8192x512_S1_S1024x512_01_n_0_0.start j (startVec (BitVec.ofNat 32 (1024 * n))) (0 : Fin 2) + scatter_S8192x512_S1_S1024x512_01_n_0_0.window j (0 : Fin 2) < ((8192 : Nat) : Int)
      rw [start0, window0, hs]; omega
    | ⟨1, _⟩ =>
      show 0 ≤ scatter_S8192x512_S1_S1024x512_01_n_0_0.start j (startVec (BitVec.ofNat 32 (1024 * n))) (1 : Fin 2) + scatter_S8192x512_S1_S1024x512_01_n_0_0.window j (1 : Fin 2)
        ∧ scatter_S8192x512_S1_S1024x512_01_n_0_0.start j (startVec (BitVec.ofNat 32 (1024 * n))) (1 : Fin 2) + scatter_S8192x512_S1_S1024x512_01_n_0_0.window j (1 : Fin 2) < ((512 : Nat) : Int)
      rw [start1, window1]; omega
  rw [dif_pos h]
  refine congrArg some (funext fun a => Fin.ext ?_)
  match a with
  | ⟨0, _⟩ =>
    show (scatter_S8192x512_S1_S1024x512_01_n_0_0.start j (startVec (BitVec.ofNat 32 (1024 * n))) (0 : Fin 2) + scatter_S8192x512_S1_S1024x512_01_n_0_0.window j (0 : Fin 2)).toNat = 1024 * n + (j 0).val
    rw [start0, window0, hs]; omega
  | ⟨1, _⟩ =>
    show (scatter_S8192x512_S1_S1024x512_01_n_0_0.start j (startVec (BitVec.ofNat 32 (1024 * n))) (1 : Fin 2) + scatter_S8192x512_S1_S1024x512_01_n_0_0.window j (1 : Fin 2)).toNat = (j 1).val
    rw [start1, window1]; omega

/-- A scatter of a 1024-row update at start row `1024 n`, read at an index: inside rows `1024 n … 1024 n + 1023`
    the update's element, elsewhere the operand's. -/
theorem scatter_rows_apply (n : Nat) (hn : n < 8) (acc : FVec Ideal S8192x512 .f32) (upd : FVec Ideal S1024x512 .f32)
    (i : S8192x512.Idx) :
    Host.scatter scatter_S8192x512_S1_S1024x512_01_n_0_0 (fun _ b => b) acc (startVec (BitVec.ofNat 32 (1024 * n))) upd i
      = if (i 0).val / 1024 = n then upd (ix2 (⟨(i 0).val % 1024, Nat.mod_lt _ (by decide)⟩ : Fin 1024) (i 1)) else acc i := by
  have hi0 : (i 0).val < 8192 := idx2_lt0 i
  by_cases h : (i 0).val / 1024 = n
  · rw [if_pos h]
    refine scatter_set_hit _ acc _ upd i _ ?_ ?_
    · rw [resultIdx_eq n hn]
      refine congrArg some (funext fun a => Fin.ext ?_)
      match a with
      | ⟨0, _⟩ => show 1024 * n + (i 0).val % 1024 = (i 0).val; omega
      | ⟨1, _⟩ => rfl
    · intro j' hj'
      rw [resultIdx_eq n hn] at hj'
      have hf := Option.some.inj hj'
      have h0 : 1024 * n + (j' 0).val = (i 0).val := congrArg (fun f : S8192x512.Idx => (f 0).val) hf
      have h1 : (j' 1).val = (i 1).val := congrArg (fun f : S8192x512.Idx => (f 1).val) hf
      have hj0 : (j' 0).val < 1024 := idx2_lt0 j'
      funext a
      match a with
      | ⟨0, _⟩ => exact Fin.ext (by show (j' 0).val = (i 0).val % 1024; omega)
      | ⟨1, _⟩ => exact Fin.ext h1
  · rw [if_neg h]
    refine scatter_set_miss _ acc _ upd i (fun j hj => h ?_)
    rw [resultIdx_eq n hn] at hj
    have hf := Option.some.inj hj
    have h0 : 1024 * n + (j 0).val = (i 0).val := congrArg (fun f : S8192x512.Idx => (f 0).val) hf
    have hj0 : (j 0).val < 1024 := idx2_lt0 j
    omega

/-! ## One segment of the reference, as printed -/

/-- One segment's update as the reference computes it: the 1024 rows from start row `b`, the weight slabs at
    offset `off`, the gate spelt with a quotient. -/
def refSeg (x : FVec Ideal S8192x512 .f32) (wg wu : FVec Ideal S8x512x1024 .f32) (wd : FVec Ideal S8x1024x512 .f32)
    (b : BitVec 32) (off : Fin 3 → Nat) (hE : S8x512x1024.Slices off S1x512x1024) (hC : S8x1024x512.Slices off S1x1024x512) :
    FVec Ideal S1024x512 .f32 :=
  Host.dotGeneral dot_S1024x1024_S1024x512_S1024x512_1_0_0_1_n_n none (mulf (mulf (Host.dotGeneral dot_S1024x512_S512x1024_S1024x1024_1_0_0_1_n_n none (Host.dynamicSlice S1024x512 x (fun k => (((![constantI S_ 32 b, constantI S_ 32 0#32] : Fin 2 → (⟨S_, .i32⟩ : BufTy).Contents (Elt Ideal))) k (Shape.Idx.first h_S_)).toInt) sliceFits_S8192x512_S1024x512) (shapeCast _ (extractStridedSlice S1x512x1024 off wg hE) shapeCasts_S1x512x1024_S512x1024)) (Host.divf (broadcastInDim S1024x1024 ![] bcast_S_S1024x1024 (constant S_ .f32 0x3F800000#32)) (addf (broadcastInDim S1024x1024 ![] bcast_S_S1024x1024 (constant S_ .f32 0x3F800000#32)) (Host.exp (Host.negf (Host.dotGeneral dot_S1024x512_S512x1024_S1024x1024_1_0_0_1_n_n none (Host.dynamicSlice S1024x512 x (fun k => (((![constantI S_ 32 b, constantI S_ 32 0#32] : Fin 2 → (⟨S_, .i32⟩ : BufTy).Contents (Elt Ideal))) k (Shape.Idx.first h_S_)).toInt) sliceFits_S8192x512_S1024x512) (shapeCast _ (extractStridedSlice S1x512x1024 off wg hE) shapeCasts_S1x512x1024_S512x1024))))))) (Host.dotGeneral dot_S1024x512_S512x1024_S1024x1024_1_0_0_1_n_n none (Host.dynamicSlice S1024x512 x (fun k => (((![constantI S_ 32 b, constantI S_ 32 0#32] : Fin 2 → (⟨S_, .i32⟩ : BufTy).Contents (Elt Ideal))) k (Shape.Idx.first h_S_)).toInt) sliceFits_S8192x512_S1024x512) (shapeCast _ (extractStridedSlice S1x512x1024 off wu hE) shapeCasts_S1x512x1024_S512x1024))) (shapeCast _ (extractStridedSlice S1x1024x512 off wd hC) shapeCasts_S1x1024x512_S1024x512)

/-- At start row `1024 n` and slab offset `n` that segment is expert `n`'s output. -/
theorem refSeg_eq (x : FVec Ideal S8192x512 .f32) (wg wu : FVec Ideal S8x512x1024 .f32) (wd : FVec Ideal S8x1024x512 .f32)
    (n : Nat) (hn : n < 8) (hE : S8x512x1024.Slices ![n, 0, 0] S1x512x1024) (hC : S8x1024x512.Slices ![n, 0, 0] S1x1024x512) :
    refSeg x wg wu wd (BitVec.ofNat 32 (1024 * n)) ![n, 0, 0] hE hC = expert x wg wu wd ⟨n, hn⟩ := by
  unfold refSeg expert seg
  rw [silu_eq, rows_eq x ⟨n, hn⟩, dExpand_eq, dContract_eq]

/-- One step of the reference: the segment's update scattered over the running result at its start row. -/
def refStep (x : FVec Ideal S8192x512 .f32) (wg wu : FVec Ideal S8x512x1024 .f32) (wd : FVec Ideal S8x1024x512 .f32)
    (b : BitVec 32) (off : Fin 3 → Nat) (hE : S8x512x1024.Slices off S1x512x1024) (hC : S8x1024x512.Slices off S1x1024x512)
    (acc : FVec Ideal S8192x512 .f32) : FVec Ideal S8192x512 .f32 :=
  Host.scatter scatter_S8192x512_S1_S1024x512_01_n_0_0 (fun _ b => b) acc (broadcastInDim S1 ![] bcast_S_S1 (constantI S_ 32 b)) (refSeg x wg wu wd b off hE hC)

/-- Step `n`, read at an index: inside block `n` of the rows the layer, elsewhere the running result. -/
theorem refStep_apply (x : FVec Ideal S8192x512 .f32) (wg wu : FVec Ideal S8x512x1024 .f32) (wd : FVec Ideal S8x1024x512 .f32)
    (n : Nat) (hn : n < 8) (b : BitVec 32) (off : Fin 3 → Nat) (hE : S8x512x1024.Slices off S1x512x1024) (hC : S8x1024x512.Slices off S1x1024x512)
    (hb : b = BitVec.ofNat 32 (1024 * n)) (ho : off = ![n, 0, 0]) (acc : FVec Ideal S8192x512 .f32) (i : S8192x512.Idx) :
    refStep x wg wu wd b off hE hC acc i = if (i 0).val / 1024 = n then layer x wg wu wd i else acc i := by
  subst hb ho
  unfold refStep
  rw [show (broadcastInDim S1 ![] bcast_S_S1 (constantI S_ 32 (BitVec.ofNat 32 (1024 * n))) : IVec S1 32) = startVec (BitVec.ofNat 32 (1024 * n)) from rfl,
    scatter_rows_apply n hn, refSeg_eq x wg wu wd n hn]
  by_cases h : (i 0).val / 1024 = n
  · rw [if_pos h, if_pos h]
    have hi0 : (i 0).val < 8192 := idx2_lt0 i
    exact (layer_block x wg wu wd ⟨n, hn⟩ _ i (by show (i 0).val = 1024 * n + (i 0).val % 1024; omega) rfl).symm
  · rw [if_neg h, if_neg h]

/-! ## The eight steps -/

set_option maxRecDepth 65536 in
/-- The reference's result term is the eight steps in order, starting from the input. -/
theorem result_steps (m : (ℓ : Loc nD τ sig) → Buf (Elt Ideal) ℓ) (c : Dev nD) :
    ValueP.res_main_v111 (F := Ideal) m c =
      (refStep (m ((c.tc : Thread nD τ).loc main_arg0)) (m ((c.tc : Thread nD τ).loc main_arg1)) (m ((c.tc : Thread nD τ).loc main_arg2)) (m ((c.tc : Thread nD τ).loc main_arg3)) 7168#32 ![7, 0, 0] slices_S8x512x1024_S1x512x1024_7_0_0 slices_S8x1024x512_S1x1024x512_7_0_0
      (refStep (m ((c.tc : Thread nD τ).loc main_arg0)) (m ((c.tc : Thread nD τ).loc main_arg1)) (m ((c.tc : Thread nD τ).loc main_arg2)) (m ((c.tc : Thread nD τ).loc main_arg3)) 6144#32 ![6, 0, 0] slices_S8x512x1024_S1x512x1024_6_0_0 slices_S8x1024x512_S1x1024x512_6_0_0
      (refStep (m ((c.tc : Thread nD τ).loc main_arg0)) (m ((c.tc : Thread nD τ).loc main_arg1)) (m ((c.tc : Thread nD τ).loc main_arg2)) (m ((c.tc : Thread nD τ).loc main_arg3)) 5120#32 ![5, 0, 0] slices_S8x512x1024_S1x512x1024_5_0_0 slices_S8x1024x512_S1x1024x512_5_0_0
      (refStep (m ((c.tc : Thread nD τ).loc main_arg0)) (m ((c.tc : Thread nD τ).loc main_arg1)) (m ((c.tc : Thread nD τ).loc main_arg2)) (m ((c.tc : Thread nD τ).loc main_arg3)) 4096#32 ![4, 0, 0] slices_S8x512x1024_S1x512x1024_4_0_0 slices_S8x1024x512_S1x1024x512_4_0_0
      (refStep (m ((c.tc : Thread nD τ).loc main_arg0)) (m ((c.tc : Thread nD τ).loc main_arg1)) (m ((c.tc : Thread nD τ).loc main_arg2)) (m ((c.tc : Thread nD τ).loc main_arg3)) 3072#32 ![3, 0, 0] slices_S8x512x1024_S1x512x1024_3_0_0 slices_S8x1024x512_S1x1024x512_3_0_0
      (refStep (m ((c.tc : Thread nD τ).loc main_arg0)) (m ((c.tc : Thread nD τ).loc main_arg1)) (m ((c.tc : Thread nD τ).loc main_arg2)) (m ((c.tc : Thread nD τ).loc main_arg3)) 2048#32 ![2, 0, 0] slices_S8x512x1024_S1x512x1024_2_0_0 slices_S8x1024x512_S1x1024x512_2_0_0
      (refStep (m ((c.tc : Thread nD τ).loc main_arg0)) (m ((c.tc : Thread nD τ).loc main_arg1)) (m ((c.tc : Thread nD τ).loc main_arg2)) (m ((c.tc : Thread nD τ).loc main_arg3)) 1024#32 ![1, 0, 0] slices_S8x512x1024_S1x512x1024_1_0_0 slices_S8x1024x512_S1x1024x512_1_0_0
      (refStep (m ((c.tc : Thread nD τ).loc main_arg0)) (m ((c.tc : Thread nD τ).loc main_arg1)) (m ((c.tc : Thread nD τ).loc main_arg2)) (m ((c.tc : Thread nD τ).loc main_arg3)) 0#32 ![0, 0, 0] slices_S8x512x1024_S1x512x1024_0_0_0 slices_S8x1024x512_S1x1024x512_0_0_0
      (m ((c.tc : Thread nD τ).loc main_arg0)))))))))) := rfl

/-- The reference's result is the layer of its arguments: each step fills in one block of rows, and the eight blocks
    are all the rows. -/
theorem result_eq (m : (ℓ : Loc nD τ sig) → Buf (Elt Ideal) ℓ) (c : Dev nD) :
    ValueP.res_main_v111 (F := Ideal) m c = layer (m ((c.tc : Thread nD τ).loc main_arg0)) (m ((c.tc : Thread nD τ).loc main_arg1)) (m ((c.tc : Thread nD τ).loc main_arg2)) (m ((c.tc : Thread nD τ).loc main_arg3)) := by
  funext i
  have hi0 : (i 0).val < 8192 := idx2_lt0 i
  rw [result_steps,
    refStep_apply _ _ _ _ 7 (by decide) 7168#32 ![7, 0, 0] _ _ rfl rfl,
    refStep_apply _ _ _ _ 6 (by decide) 6144#32 ![6, 0, 0] _ _ rfl rfl,
    refStep_apply _ _ _ _ 5 (by decide) 5120#32 ![5, 0, 0] _ _ rfl rfl,
    refStep_apply _ _ _ _ 4 (by decide) 4096#32 ![4, 0, 0] _ _ rfl rfl,
    refStep_apply _ _ _ _ 3 (by decide) 3072#32 ![3, 0, 0] _ _ rfl rfl,
    refStep_apply _ _ _ _ 2 (by decide) 2048#32 ![2, 0, 0] _ _ rfl rfl,
    refStep_apply _ _ _ _ 1 (by decide) 1024#32 ![1, 0, 0] _ _ rfl rfl,
    refStep_apply _ _ _ _ 0 (by decide) 0#32 ![0, 0, 0] _ _ rfl rfl]
  split_ifs <;> first | rfl | (exfalso; omega)

/-- The reference's run: every weakly fair execution ends with the result at the layer of the arguments, the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v111) = layer (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (result_eq m c), (h c).2⟩) (ValueP.run (F := Ideal) m ρ)

end Cert.ReferenceIdeal.Layer

end
-- ==== Proof.lean ====
/- The proof of `Cert.Claim`: a gated feed-forward layer applied expert by expert.

   Both programs compute, for 8192 rows `x` of 512 features split into 8 consecutive blocks of 1024 rows, and 8
   experts' weights `wg e`, `wu e` (512 × 1024) and `wd e` (1024 × 512),

       out[block e] = ((g * σ(g)) * u) · wd e,     g = x[block e] · wg e,   u = x[block e] · wu e,   σ t = 1 / (1 + e^(-t)),

   the function `Cert.Ffn.layer` (Proof/Segment.lean). The kernel does it with one grid point per expert, each
   point handed its block of rows and its expert's matrices (Proof/KernelValue.lean); the reference does it
   segment by segment, slicing the rows at a constant start and scattering each segment's result back over the
   running result (Proof/RefValue.lean, over the general law for a scatter that sets, Proof/LibScatter.lean).
   On the extended reals the two spell the same sums of the same products in the same order — narrowing to bf16
   is the identity there, a matrix product into a zero accumulator is the plain product, and the quotient
   `1 / (1 + e^(-g))` is the logistic function — so no algebraic law, and nothing of the inputs' finiteness, is
   needed: both runs end at `layer` of arguments that agree.

   The three frames are the programs' runs with the results dropped; the idealization rewrote nothing, so its
   conjunct is `True`. -/
import proofs.«178077_g65764539236544_cont_9to1_m_395_16_alg».proof.Defs
import proofs.«178077_g65764539236544_cont_9to1_m_395_16_alg».proof.Proof.Gen.Kernel
import proofs.«178077_g65764539236544_cont_9to1_m_395_16_alg».proof.Proof.Gen.Kernel.Skeleton
import proofs.«178077_g65764539236544_cont_9to1_m_395_16_alg».proof.Proof.Gen.Kernel.Launch
import proofs.«178077_g65764539236544_cont_9to1_m_395_16_alg».proof.Proof.Gen.Kernel.Points
import proofs.«178077_g65764539236544_cont_9to1_m_395_16_alg».proof.Proof.Gen.Kernel.Frame
import proofs.«178077_g65764539236544_cont_9to1_m_395_16_alg».proof.Proof.Gen.KernelIdeal
import proofs.«178077_g65764539236544_cont_9to1_m_395_16_alg».proof.Proof.Gen.KernelIdeal.Skeleton
import proofs.«178077_g65764539236544_cont_9to1_m_395_16_alg».proof.Proof.Gen.KernelIdeal.Launch
import proofs.«178077_g65764539236544_cont_9to1_m_395_16_alg».proof.Proof.Gen.KernelIdeal.Points
import proofs.«178077_g65764539236544_cont_9to1_m_395_16_alg».proof.Proof.Gen.KernelIdeal.Frame
import proofs.«178077_g65764539236544_cont_9to1_m_395_16_alg».proof.Proof.Gen.ReferenceIdeal
import proofs.«178077_g65764539236544_cont_9to1_m_395_16_alg».proof.Proof.Gen.Pre_finite_inputs
import proofs.«178077_g65764539236544_cont_9to1_m_395_16_alg».proof.Proof.Gen.KernelIdeal.Value
import proofs.«178077_g65764539236544_cont_9to1_m_395_16_alg».proof.Proof.RefRun
import proofs.«178077_g65764539236544_cont_9to1_m_395_16_alg».proof.Proof.KernelValue
import proofs.«178077_g65764539236544_cont_9to1_m_395_16_alg».proof.Proof.RefValue
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both runs end with the result at the layer of the arguments. -/
theorem algebraic : Cert.algebraic_KernelIdeal_ReferenceIdeal := by
  intro m ρ m' ρ' _ hagree
  refine ⟨_, Cert.KernelIdeal.Layer.run m ρ, ?_⟩
  refine (θ_run Cert.ReferenceIdeal.defs _ _).mono (fun _ h c => ⟨(h c).1.trans ?_, (h c).2⟩)
    (Cert.ReferenceIdeal.Layer.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
